-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S10000x512 : Shape := ⟨2, ![10000, 512]⟩
abbrev S4096x1 : Shape := ⟨2, ![4096, 1]⟩
abbrev S512x10000 : Shape := ⟨2, ![512, 10000]⟩
abbrev S_ : Shape := ⟨0, ![]⟩
abbrev S512x10112 : Shape := ⟨2, ![512, 10112]⟩
abbrev S10000 : Shape := ⟨1, ![10000]⟩
abbrev S10000x1 : Shape := ⟨2, ![10000, 1]⟩
abbrev S1x10000 : Shape := ⟨2, ![1, 10000]⟩
abbrev S1x10112 : Shape := ⟨2, ![1, 10112]⟩
abbrev S32x1x1 : Shape := ⟨3, ![32, 1, 1]⟩
abbrev S128x512 : Shape := ⟨2, ![128, 512]⟩
abbrev S128x1 : Shape := ⟨2, ![128, 1]⟩
abbrev S1x1x1 : Shape := ⟨3, ![1, 1, 1]⟩
abbrev S128 : Shape := ⟨1, ![128]⟩
abbrev S128x10112 : Shape := ⟨2, ![128, 10112]⟩
abbrev S1 : Shape := ⟨1, ![1]⟩
abbrev S1x1 : Shape := ⟨2, ![1, 1]⟩

abbrev nBuf : Space → Nat
  | .hbm => 22
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x1, .i32⟩
  | .hbm, ⟨4, _⟩ => ⟨S10000x512, .bf16⟩
  | .hbm, ⟨5, _⟩ => ⟨S512x10000, .bf16⟩
  | .hbm, ⟨6, _⟩ => ⟨S_, .i32⟩
  | .hbm, ⟨7, _⟩ => ⟨S_, .bf16⟩
  | .hbm, ⟨8, _⟩ => ⟨S512x10112, .bf16⟩
  | .hbm, ⟨9, _⟩ => ⟨S10000x512, .f32⟩
  | .hbm, ⟨10, _⟩ => ⟨S_, .f32⟩
  | .hbm, ⟨11, _⟩ => ⟨S10000, .f32⟩
  | .hbm, ⟨12, _⟩ => ⟨S10000x1, .f32⟩
  | .hbm, ⟨13, _⟩ => ⟨S1x10000, .f32⟩
  | .hbm, ⟨14, _⟩ => ⟨S_, .i32⟩
  | .hbm, ⟨15, _⟩ => ⟨S_, .f32⟩
  | .hbm, ⟨16, _⟩ => ⟨S1x10112, .f32⟩
  | .hbm, ⟨17, _⟩ => ⟨S32x1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S512x10112, .bf16⟩
  | .local _ .vmem, ⟨3, _⟩ => ⟨S1x10112, .f32⟩
  | .local _ .vmem, ⟨4, _⟩ => ⟨S128x1, .i32⟩
  | .local _ .vmem, ⟨5, _⟩ => ⟨S128x1, .i32⟩
  | .local _ .vmem, ⟨6, _⟩ => ⟨S1x1x1, .f32⟩
  | .local _ .vmem, ⟨7, _⟩ => ⟨S1x1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x10112 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S4096x1 : S4096.ShapeCasts S4096x1
  bitsLt_bf16_f32 : FTy.bits .bf16 < FTy.bits .f32
  transposes_S10000x512_S512x10000_1_0 : S10000x512.Transposes [1, 0] S512x10000
  pads_S512x10000_S512x10112_000_01120 : S512x10000.Pads (![0, 0] : Fin 2 → Nat) ![0, 112] ![0, 0] S512x10112
  h_S_ : 0 < S_.numel
  reducesTo_S10000x512_S10000_d1 : S10000x512.ReducesTo [1] S10000
  bcast_S10000_S10000x1_0 : S10000.BroadcastsInDim S10000x1 (![0] : Fin 1 → Fin S10000x1.rank)
  transposes_S10000x1_S1x10000_1_0 : S10000x1.Transposes [1, 0] S1x10000
  pads_S1x10000_S1x10112_000_01120 : S1x10000.Pads (![0, 0] : Fin 2 → Nat) ![0, 112] ![0, 0] S1x10112
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  inb_S512x10112_S512x10112_0_0 : ∀ a, (![0, 0] : Fin 2 → Nat) a + S512x10112.size a ≤ S512x10112.size a
  h_S512x10112 : 0 < S512x10112.numel
  shapeCasts_S512x10112_S512x10112 : S512x10112.ShapeCasts S512x10112
  inb_S1x10112_S1x10112_0_0 : ∀ a, (![0, 0] : Fin 2 → Nat) a + S1x10112.size a ≤ S1x10112.size a
  h_S1x10112 : 0 < S1x10112.numel
  shapeCasts_S1x10112_S1x10112 : S1x10112.ShapeCasts S1x10112
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x10112 : S128x1.Broadcasts S128x10112
  broadcasts_S1x10112_S128x10112 : S1x10112.Broadcasts S128x10112
  iota_S128x10112_d1_w32 : S128x10112.Iotas .tc 32 [1]
  reduces_S128x10112_S128 : S128x10112.Reduces [1] S128
  reduces_S128x1_S1 : S128x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  dot_S128x512_S512x10112_S128x10112_1_0_0_1_n_n_wf : DotDims.WF S128x512 S512x10112 S128x10112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x10112.size a ≤ S512x10112.size a
  hwx0_1 : ∀ i : grid0.Coords, EltTy.bits .bf16 = 32 ∨ (Rect.block (s := S512x10112) S512x10112.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10112.size a ≤ S1x10112.size a
  hwx0_2 : ∀ i : grid0.Coords, EltTy.bits .f32 = 32 ∨ (Rect.block (s := S1x10112) S1x10112.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .i32 = 32 ∨ (Rect.block (s := S4096x1) S128x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)

variable [Facts₀]

def dot_S128x512_S512x10112_S128x10112_1_0_0_1_n_n : DotDims S128x512 S512x10112 S128x10112 where
  lhsContracting := [1]
  rhsContracting := [0]
  lhsNonContracting := [0]
  rhsNonContracting := [1]
  lhsBatch := []
  rhsBatch := []
  wf := dot_S128x512_S512x10112_S128x10112_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x10112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x10112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x10000 : Shape := ⟨2, ![512, 10000]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S512x10000, .f32⟩
  | .hbm, ⟨15, _⟩ => ⟨S4096x10000, .f32⟩
  | .hbm, ⟨16, _⟩ => ⟨S_, .f32⟩
  | .hbm, ⟨17, _⟩ => ⟨S4096x10000, .f32⟩
  | .hbm, ⟨18, _⟩ => ⟨S4096x10000, .f32⟩
  | .hbm, ⟨19, _⟩ => ⟨S4096x10000, .f32⟩
  | .hbm, ⟨20, _⟩ => ⟨S10000, .i32⟩
  | .hbm, ⟨21, _⟩ => ⟨S4096x1, .i32⟩
  | .hbm, ⟨22, _⟩ => ⟨S1x10000, .i32⟩
  | .hbm, ⟨23, _⟩ => ⟨S4096x10000, .i32⟩
  | .hbm, ⟨24, _⟩ => ⟨S4096x10000, .i32⟩
  | .hbm, ⟨25, _⟩ => ⟨S4096x10000, .i1⟩
  | .hbm, ⟨26, _⟩ => ⟨S4096x10000, .f32⟩
  | .hbm, ⟨27, _⟩ => ⟨S4096x10000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x10000, .f32⟩
  | .hbm, ⟨32, _⟩ => ⟨S4096x10000, .f32⟩
  | .hbm, ⟨33, _⟩ => ⟨S_, .f32⟩
  | .hbm, ⟨34, _⟩ => ⟨S4096x10000, .f32⟩
  | .hbm, ⟨35, _⟩ => ⟨S4096x10000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x512_S512x10000_1_0 : S10000x512.Transposes [1, 0] S512x10000
  bcast_S_S4096x10000 : S_.BroadcastsInDim S4096x10000 (![] : Fin 0 → Fin S4096x10000.rank)
  reducesTo_S4096x10000_S_d0_1 : S4096x10000.ReducesTo [0, 1] S_
  dot_S4096x512_S512x10000_S4096x10000_1_0_0_1_n_n_wf : DotDims.WF S4096x512 S512x10000 S4096x10000 [1] [0] [0] [1] [] []

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf

class Facts : Prop extends Facts₀ where

variable [Facts]
-- ==== Proof.Spec.lean ====
/-
  The centre loss, as one number computed from the three arrays, and the two rearrangements of sums that relate the
  tiled computation to the plain one.

  For features x (4096 rows of 512), labels (one 32-bit word per row) and centres (10000 rows of 512) the squared distance
  of row b to centre c is |x_b|² + |centre_c|² − 2·⟨x_b, centre_c⟩. The matrix of squared distances is masked to the
  entries whose column is the row's label (every other entry is 0), every entry is clamped between two positive
  constants — so each masked-out entry contributes the lower constant —, the 4096 × 10000 entries are added, and the sum
  is divided by 4096. Everything is on the extended reals, where a product with 0 is 0 and sums commute and associate
  with no finiteness condition; no law used here needs more than that.
-/
import Idealize.ShloMosaic.PureOps.Ideal.Laws
import Idealize.ShloMosaic.Lib.ValueIdx

noncomputable section

open scoped BigOperators

namespace Cert.CenterLoss

open Idealize.ShloMosaic Idealize.ShloMosaic.ValueIdx

/-- The constants, kept as the words the programs print: 2, the two clamp bounds, 4096. -/
abbrev two : EReal := Ideal.ofBits .f32 0x40000000#32
abbrev lower : EReal := Ideal.ofBits .f32 0x2B8CBCCC#32
abbrev upper : EReal := Ideal.ofBits .f32 0x5368D4A5#32
abbrev count : EReal := Ideal.ofBits .f32 0x45800000#32

/-- The squared length of row `b` of an n × d matrix. -/
def rowSq {n d : Nat} (x : FVec Ideal ⟨2, ![n, d]⟩ .f32) (b : Fin n) : EReal := ∑ k : Fin d, x (ix2 b k) * x (ix2 b k)

/-- The inner product of row `b` of `x` with row `c` of `y`. -/
def rowDot {n n' d : Nat} (x : FVec Ideal ⟨2, ![n, d]⟩ .f32) (y : FVec Ideal ⟨2, ![n', d]⟩ .f32) (b : Fin n) (c : Fin n') : EReal :=
  ∑ k : Fin d, x (ix2 b k) * y (ix2 c k)

/-- The squared distance of row `b` of `x` to row `c` of `y`, expanded: |x_b|² + |y_c|² − 2·⟨x_b, y_c⟩. -/
def sqDist {n n' d : Nat} (x : FVec Ideal ⟨2, ![n, d]⟩ .f32) (y : FVec Ideal ⟨2, ![n', d]⟩ .f32) (b : Fin n) (c : Fin n') : EReal :=
  (rowSq x b + rowSq y c) - two * rowDot x y b c

/-- Entry (b, c) of the masked, clamped matrix: the squared distance where `c` is row `b`'s label, 0 elsewhere, clamped. -/
def entry {n n' d : Nat} (x : FVec Ideal ⟨2, ![n, d]⟩ .f32) (lab : IVec ⟨1, ![n]⟩ 32) (y : FVec Ideal ⟨2, ![n', d]⟩ .f32)
    (b : Fin n) (c : Fin n') : EReal :=
  min upper (max lower (if lab (ix1 b) = BitVec.ofNat 32 c.val then sqDist x y b c else 0))

/-- The loss: all entries added, over the count. -/
def loss (x : FVec Ideal ⟨2, ![4096, 512]⟩ .f32) (lab : IVec ⟨1, ![4096]⟩ 32) (y : FVec Ideal ⟨2, ![10000, 512]⟩ .f32) : EReal :=
  Ideal.div (∑ b : Fin 4096, ∑ c : Fin 10000, entry x lab y b c) count

/-! ## A mask as a factor and as a choice -/

/-- A product with the 0/1 value of an equality test keeps the factor where the test holds and is 0 elsewhere: on the
    extended reals too, since there 0 times anything is 0. -/
theorem mul_mask {w : Nat} (d : EReal) (a b : BitVec w) :
    d * (((BitVec.ofBool (a == b)).toNat : ℝ) : EReal) = if a = b then d else 0 := by
  by_cases h : a = b
  · subst h; simp
  · have : (a == b) = false := by simpa using h
    rw [this, if_neg h]; simp

/-- The choice on the same test. -/
theorem select_mask {w : Nat} (d z : EReal) (a b : BitVec w) :
    Scalar.select (BitVec.ofBool (a == b)) d z = if a = b then d else z := by
  by_cases h : a = b
  · subst h; simp [Scalar.select]
  · have : (a == b) = false := by simpa using h
    rw [this, if_neg h]; simp [Scalar.select]

/-! ## Two rearrangements of a finite sum -/

/-- A sum over m + n indices whose terms vanish from index m on is the sum over the first m. -/
theorem sum_first {M : Type*} [AddCommMonoid M] (m n : Nat) (f : Fin (m + n) → M) (h : ∀ i : Fin (m + n), m ≤ i.val → f i = 0) :
    ∑ i, f i = ∑ i : Fin m, f (Fin.castAdd n i) := by
  rw [Fin.sum_univ_add, Finset.sum_eq_zero (s := Finset.univ) (f := fun i : Fin n => f (Fin.natAdd m i)), add_zero]
  intro i _
  exact h _ (by simp [Fin.natAdd])

/-- A sum over m·n indices is the sum over m tiles of the sums over the n indices of each tile; index r of tile t is
    r + n·t. -/
theorem sum_tiles {M : Type*} [AddCommMonoid M] (m n : Nat) (f : Fin (m * n) → M) :
    ∑ t : Fin m, ∑ r : Fin n, f (finProdFinEquiv (t, r)) = ∑ b, f b := by
  rw [← Equiv.sum_comp finProdFinEquiv f, Fintype.sum_prod_type]

end Cert.CenterLoss

end
-- ==== Proof.RefLoss.lean ====
/-
  The reference program computes the loss of Spec.lean.

  Read one operation at a time, entry (b, c) of the reference's clamped matrix is: the row sums of squares of x and of
  the centres broadcast along the other axis and added, minus twice the matrix product of x with the transposed centres,
  times the 0/1 value of "label b equals c", clamped. The product with the 0/1 value is the choice between the distance
  and 0; the leading zeros of the host sums are dropped. The total is the sum over all index pairs, split into the double
  sum over rows and columns, over the count.
-/
import proofs.«110643_j1726576857091_2_alg».proof.Proof.Gen.ReferenceIdeal.Read
import proofs.«110643_j1726576857091_2_alg».proof.Proof.Spec

noncomputable section

open scoped BigOperators

namespace Cert.ReferenceIdeal.RefLoss

open Cert.ReferenceIdeal Cert.ReferenceIdeal.Gen Cert.ReferenceIdeal.Read Idealize.ShloMosaic Idealize.ShloMosaic.ValueIdx Cert.CenterLoss

/-- An unsigned word read as an extended real is its natural number. -/
theorem uitofp_ideal {w : Nat} (b : BitVec w) : FloatOps.uitofp (F := Ideal) .f32 b = (((b.toNat : ℝ)) : EReal) := rfl

/-! The index maps of the layout operations, composed, at a pair of coordinates. -/
theorem e_row (b : Fin 4096) (c : Fin 10000) (k : Fin 512) : idx_main_v1 (idx_main_v2 (idx_main_v6 (ix2 b c))) k = ix2 b k :=
  funext fun a => Fin.ext (by match a with | ⟨0, _⟩ => rfl | ⟨1, _⟩ => rfl)
theorem e_ctr (b : Fin 4096) (c : Fin 10000) (k : Fin 512) : idx_main_v4 (idx_main_v5 (idx_main_v7 (ix2 b c))) k = ix2 c k :=
  funext fun a => Fin.ext (by match a with | ⟨0, _⟩ => rfl | ⟨1, _⟩ => rfl)
theorem e_l (b : Fin 4096) (c : Fin 10000) (k : Fin 512) : lidx_main_v10 (ix2 b c) k = ix2 b k :=
  funext fun a => Fin.ext (by match a with | ⟨0, _⟩ => rfl | ⟨1, _⟩ => rfl)
theorem e_r (b : Fin 4096) (c : Fin 10000) (k : Fin 512) : idx_main_v9 (ridx_main_v10 (ix2 b c) k) = ix2 c k :=
  funext fun a => Fin.ext (by match a with | ⟨0, _⟩ => rfl | ⟨1, _⟩ => rfl)
theorem e_lab (b : Fin 4096) (c : Fin 10000) : idx_main_v15 (idx_main_v17 (ix2 b c)) = ix1 b :=
  funext fun a => Fin.ext (by match a with | ⟨0, _⟩ => rfl)

/-- Entry (b, c) of the reference's clamped matrix is the specification's. -/
theorem entry_eq (x0 : (⟨S4096x512, .f32⟩ : BufTy).Contents (Elt Ideal)) (x1 : (⟨S4096, .i32⟩ : BufTy).Contents (Elt Ideal)) (x2 : (⟨S10000x512, .f32⟩ : BufTy).Contents (Elt Ideal))
    (b : Fin 4096) (c : Fin 10000) :
    val_main_v22 (F := Ideal) x0 x1 x2 (ix2 b c) = entry x0 x1 x2 b c := by
  rw [val_main_v22_apply, val_main_call0_v4_apply, val_main_call0_v3_apply, val_main_cst_3_apply, val_main_call0_v2_apply,
    val_main_call0_v1_apply, val_main_call0_v0_apply, val_main_cst_2_apply, val_main_v21_apply, val_main_v13_apply,
    val_main_v8_apply, val_main_v6_apply, val_main_v2_apply, val_main_v1_apply, val_main_v7_apply, val_main_v5_apply,
    val_main_v4_apply, val_main_v12_apply, val_main_v11_apply, val_main_cst_1_apply, val_main_v10_apply,
    val_main_v20_apply, val_main_v19_apply, val_main_v17_apply, val_main_v15_apply, val_main_v18_apply,
    val_main_v16_apply, val_main_v14_apply]
  simp only [val_main_v0_apply, val_main_v3_apply, val_main_v9_apply, val_main_cst_apply, val_main_cst_0_apply, e_row, e_ctr, e_l, e_r,
    e_lab, uitofp_ideal, Ideal.ofBits_def, Ideal.minimumf_def, Ideal.maximumf_def, Ideal.mulf_def, Ideal.subf_def, Ideal.addf_def,
    Ideal.ofBits_zero_f32, zero_add]
  unfold entry sqDist rowSq rowDot
  have hm := mul_mask ((∑ k : Fin 512, x0 (ix2 b k) * x0 (ix2 b k)) + (∑ k : Fin 512, x2 (ix2 c k) * x2 (ix2 c k))
      - two * ∑ k : Fin 512, x0 (ix2 b k) * x2 (ix2 c k)) (x1 (ix1 b)) (BitVec.ofNat 32 c.val)
  exact congrArg (fun z => min upper (max lower z)) hm

/-- The reference's result is the loss. -/
theorem loss_eq (x0 : (⟨S4096x512, .f32⟩ : BufTy).Contents (Elt Ideal)) (x1 : (⟨S4096, .i32⟩ : BufTy).Contents (Elt Ideal)) (x2 : (⟨S10000x512, .f32⟩ : BufTy).Contents (Elt Ideal)) :
    val_main_v24 (F := Ideal) x0 x1 x2 = fun _ => loss x0 x1 x2 := by
  funext i
  rw [val_main_v24_apply, val_main_v23_apply, val_main_cst_4_apply, val_main_cst_5_apply, sum_idx2]
  simp only [entry_eq, Ideal.ofBits_def, Ideal.hostDivf_def, Ideal.ofBits_zero_f32, zero_add]
  rfl

end Cert.ReferenceIdeal.RefLoss

end
-- ==== Proof.Entry.lean ====
/-
  What the kernel's region finds in the three arrays the host prepares for it, entry by entry.

  Before the region the host recasts the labels as a 4096 × 1 column; transposes the centres and pads them on the right
  with zeros to 10112 columns; and sums the squares of each centre, lays the sums out as one row and pads that row with
  zeros to 10112 columns. So a padding column holds a zero centre whose sum of squares is zero.
-/
import proofs.«110643_j1726576857091_2_alg».proof.Proof.Gen.KernelIdeal.Frame
import proofs.«110643_j1726576857091_2_alg».proof.Proof.Spec
import Idealize.ShloMosaic.Lib.StableHlo.Run
import Idealize.ShloMosaic.Lib.Pipeline.Value
import Idealize.ShloMosaic.Lib.ValueLayout
import Idealize.ShloMosaic.Lib.KernelVsHost

noncomputable section

open scoped BigOperators

namespace Cert.KernelIdeal.Entry

open Cert.KernelIdeal Cert.KernelIdeal.Gen Idealize.ShloMosaic Idealize.ShloMosaic.TcCoe Idealize.SL.Sem Idealize.ShloMosaic.StableHlo Idealize.ShloMosaic.ValueIdx Cert.CenterLoss

/-! ## Layout facts -/

/-- A vector of length n recast as an n × 1 column reads, at (b, 0), the vector at b. -/
theorem shapeCast_col_apply {α : Type} {n : Nat} (v : (⟨1, ![n]⟩ : Shape).Idx → α) (h : (⟨1, ![n]⟩ : Shape).ShapeCasts ⟨2, ![n, 1]⟩)
    (b : Fin n) (z : Fin 1) : shapeCast ⟨2, ![n, 1]⟩ v h (ix2 b z) = v (ix1 b) := by
  refine shapeCast_apply v h (ix2 b z) (ix1 b) ?_
  rw [Shape.rowMajor_val_one, Shape.rowMajor_val_two]
  show b.val = b.val * 1 + z.val
  have := z.isLt; omega

/-- A vector of length n laid along the rows of an n × 1 column reads, at (b, 0), the vector at b. -/
theorem bcastCol_apply {α : Type} {n : Nat} (v : (⟨1, ![n]⟩ : Shape).Idx → α)
    (h : (⟨1, ![n]⟩ : Shape).BroadcastsInDim ⟨2, ![n, 1]⟩ (![0] : Fin 1 → Fin 2)) (b : Fin n) (z : Fin 1) :
    broadcastInDim ⟨2, ![n, 1]⟩ ![0] h v (ix2 b z) = v (ix1 b) := by
  refine broadcastInDim_apply _ h v (ix2 b z) (ix1 b) fun ax => ?_
  match ax with
  | ⟨0, _⟩ =>
    show b.val = if n = 1 then 0 else b.val
    split
    · have := b.isLt; omega
    · rfl

/-- A matrix of n columns padded on the right to N columns reads the matrix in the first n columns and the padding
    value in the others. -/
theorem pad_cols_apply {α : Type} {r n N p : Nat} (X : (⟨2, ![r, n]⟩ : Shape).Idx → α) {u : Shape} (v : u.Idx → α)
    (hp : (⟨2, ![r, n]⟩ : Shape).Pads (![0, 0] : Fin 2 → Nat) ![0, p] ![0, 0] ⟨2, ![r, N]⟩) (hu : 0 < u.numel) (a : Fin r) (b : Fin N) :
    pad ⟨2, ![r, N]⟩ ![0, 0] ![0, p] ![0, 0] X v hp hu (ix2 a b)
      = if h : b.val < n then X (ix2 a ⟨b.val, h⟩) else v (Shape.Idx.first hu) := by
  by_cases h : b.val < n
  · rw [dif_pos h]
    refine pad_apply_of_inside _ _ _ X v hp hu (ix2 a b) (ix2 a ⟨b.val, h⟩) fun ax => ?_
    match ax with
    | ⟨0, _⟩ => show a.val = 0 + a.val * (0 + 1); omega
    | ⟨1, _⟩ => show b.val = 0 + b.val * (0 + 1); omega
  · rw [dif_neg h]
    refine pad_apply_of_not_inside _ _ _ X v hp hu (ix2 a b) (1 : Fin 2) fun hh => h ?_
    have h3 : (b.val - 0) / (0 + 1) < n := hh.2.2
    omega

/-- The host's sum along the rows of an a × b matrix, at row r: the initial value plus the row's entries. -/
theorem hostRowSum_apply {a b : Nat} (T : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩) (hS : 0 < (⟨0, ![]⟩ : Shape).numel) (r : Fin a) :
    Host.reduceAdd T init h' hS (ix1 r) = init (Shape.Idx.first hS) + ∑ c : Fin b, T (ix2 r c) := by
  simp only [Host.reduceAdd, Ideal.hostReduceAdd_def]
  rw [Ideal.hostReduceAdd_single h' h]
  refine congrArg (_ + ·) (Finset.sum_congr rfl fun c _ => ?_)
  exact congrArg T (funext fun ax => Fin.ext (by match ax with | ⟨0, _⟩ => rfl | ⟨1, _⟩ => rfl))

variable (m : (ℓ : Loc nD τ sig) → Buf (Elt Ideal) ℓ)

/-- The three argument arrays as launched. -/
abbrev argX (c : Dev nD) : FVec Ideal S4096x512 .f32 := m ((c : Thread nD τ).loc main_arg0)
abbrev argLab (c : Dev nD) : IVec S4096 32 := m ((c : Thread nD τ).loc main_arg1)
abbrev argCtr (c : Dev nD) : FVec Ideal S10000x512 .f32 := m ((c : Thread nD τ).loc main_arg2)

/-- The labels column as the host's operations build it. -/
theorem labels_term (c : Dev nD) :
    (V m c main_v0 : S4096x1.Idx → BitVec 32) = shapeCast S4096x1 (argLab m c) shapeCasts_S4096_S4096x1 := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

/-- The padded transposed centres as the host's operations build them. -/
theorem ctrT_term (c : Dev nD) :
    (V m c main_v3 : S512x10112.Idx → EReal) = pad S512x10112 ![0, 0] ![0, 112] ![0, 0]
      (transpose S512x10000 [1, 0] (truncf .bf16 (argCtr m c) bitsLt_bf16_f32) transposes_S10000x512_S512x10000_1_0)
      (sitofp (F := Ideal) .bf16 (constantI S_ 32 0#32)) pads_S512x10000_S512x10112_000_01120 h_S_ := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

/-- The padded row of sums of squares as the host's operations build it. -/
theorem csq_term (c : Dev nD) :
    (V m c main_v8 : S1x10112.Idx → EReal) = pad S1x10112 ![0, 0] ![0, 112] ![0, 0]
      (transpose S1x10000 [1, 0] (broadcastInDim S10000x1 ![0] bcast_S10000_S10000x1_0
        (Host.reduceAdd (mulf (argCtr m c) (argCtr m c)) (constant (F := Ideal) S_ .f32 0x00000000#32) reducesTo_S10000x512_S10000_d1 h_S_))
        transposes_S10000x1_S1x10000_1_0)
      (sitofp (F := Ideal) .f32 (constantI S_ 32 0#32)) pads_S1x10000_S1x10112_000_01120 h_S_ := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

/-! ## The arrays the region finds, read at an index -/

/-- The labels column the region finds: entry (b, 0) is label b. -/
theorem labels_entry (c : Dev nD) (b : Fin 4096) (z : Fin 1) :
    (V m c main_v0 : S4096x1.Idx → BitVec 32) (ix2 b z) = argLab m c (ix1 b) := by
  rw [labels_term]; exact shapeCast_col_apply _ shapeCasts_S4096_S4096x1 b z

/-- The padded transposed centres the region finds: entry (k, j) is entry (j, k) of the centres for j < 10000, else 0. -/
theorem ctrT_entry (c : Dev nD) (k : Fin 512) (j : Fin 10112) :
    (V m c main_v3 : S512x10112.Idx → EReal) (ix2 k j)
      = if h : j.val < 10000 then argCtr m c (ix2 (⟨j.val, h⟩ : Fin 10000) k) else 0 := by
  rw [ctrT_term, pad_cols_apply]
  split
  · rename_i h
    exact transpose_ix2_apply (truncf .bf16 (argCtr m c) bitsLt_bf16_f32) transposes_S10000x512_S512x10000_1_0 k (⟨j.val, h⟩ : Fin 10000)
  · show (((0#32 : BitVec 32).toInt : ℝ) : EReal) = 0
    simp

/-- The padded row of the centres' sums of squares the region finds: entry (0, j) is |centre j|² for j < 10000, else 0. -/
theorem csq_entry (c : Dev nD) (z : Fin 1) (j : Fin 10112) :
    (V m c main_v8 : S1x10112.Idx → EReal) (ix2 z j)
      = if h : j.val < 10000 then rowSq (argCtr m c) (⟨j.val, h⟩ : Fin 10000) else 0 := by
  rw [csq_term, pad_cols_apply]
  split
  · rename_i h
    rw [transpose_ix2_apply _ transposes_S10000x1_S1x10000_1_0 z (⟨j.val, h⟩ : Fin 10000),
      bcastCol_apply _ bcast_S10000_S10000x1_0 (⟨j.val, h⟩ : Fin 10000) z,
      hostRowSum_apply _ _ reducesTo_S10000x512_S10000_d1 (by decide) h_S_ (⟨j.val, h⟩ : Fin 10000)]
    show Ideal.ofBits .f32 0x00000000#32 + _ = _
    rw [Ideal.ofBits_zero_f32, zero_add]
    rfl
  · show (((0#32 : BitVec 32).toInt : ℝ) : EReal) = 0
    simp

end Cert.KernelIdeal.Entry

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.Tile.lean ====
/-
  What one grid point of the kernel computes from its four blocks, at the ideal values.

  A point loads 128 rows of x, the whole padded transposed centres (512 × 10112), the padded row of the centres' sums of
  squares (1 × 10112) and 128 labels. Its 128 × 10112 tile has, at (r, c), the squared distance of row r to centre c
  (row sum of squares, plus the centre's sum of squares, minus twice the matrix product), kept where label r is c and
  0 elsewhere, clamped, and set to 0 in the padding columns c ≥ 10000. The point stores the sum of the tile: along the
  rows, then down the column of row sums. In a padding column the tile is 0; in the others it is the specification's
  entry, whatever the padding holds.
-/
import proofs.«110643_j1726576857091_2_alg».proof.Proof.Gen.KernelIdeal.Skeleton
import proofs.«110643_j1726576857091_2_alg».proof.Proof.Spec
import proofs.«110643_j1726576857091_2_alg».proof.Proof.LibTileOps
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.CenterLoss

/-! ## Small layout facts -/

/-- A vector of length n recast as an n × 1 column reads, at (b, 0), the vector at b. -/
theorem shapeCast_col_apply {α : Type} {n : Nat} (v : (⟨1, ![n]⟩ : Shape).Idx → α) (h : (⟨1, ![n]⟩ : Shape).ShapeCasts ⟨2, ![n, 1]⟩)
    (b : Fin n) (z : Fin 1) : shapeCast ⟨2, ![n, 1]⟩ v h (ix2 b z) = v (ix1 b) := by
  refine shapeCast_apply v h (ix2 b z) (ix1 b) ?_
  rw [Shape.rowMajor_val_one, Shape.rowMajor_val_two]
  show b.val = b.val * 1 + z.val
  have := z.isLt; omega

/-- An a × 1 column stretched to a × b reads, at (p, c), the column's entry p. -/
theorem broadcastCol_apply {α : Type} {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an a × b matrix, at row r. -/
theorem rowSum_apply {a b : Nat} (T : FVec Ideal ⟨2, ![a, b]⟩ .f32) (h : (⟨2, ![a, b]⟩ : Shape).Reduces [1] ⟨1, ![a]⟩) (hφ) (hacc) (r : Fin a) :
    multiReduction .add [1] ⟨1, ![a]⟩ T 0x00000000#32 h hφ hacc (ix1 r) = ∑ c : Fin b, T (ix2 r c) := by
  rw [Ideal.multiReduction_add_single]
  refine Finset.sum_congr rfl fun c _ => ?_
  exact congrArg T (funext fun ax => Fin.ext (by match ax with | ⟨0, _⟩ => rfl | ⟨1, _⟩ => rfl))

/-- The sum down the one column of an a × 1 matrix. -/
theorem colSum_apply {a : Nat} (T : FVec Ideal ⟨2, ![a, 1]⟩ .f32) (h : (⟨2, ![a, 1]⟩ : Shape).Reduces [0] ⟨1, ![1]⟩) (hφ) (hacc) (z : Fin 1) :
    multiReduction .add [0] ⟨1, ![1]⟩ T 0x00000000#32 h hφ hacc (ix1 z) = ∑ r : Fin a, T (ix2 r (0 : Fin 1)) := by
  rw [Ideal.multiReduction_add_single]
  refine Finset.sum_congr rfl fun r _ => ?_
  exact congrArg T (funext fun ax => Fin.ext (by match ax with | ⟨0, _⟩ => rfl | ⟨1, _⟩ => have := z.isLt; show z.val = 0; omega))

/-! ## What one grid point computes -/

/-- Entry (r, c) of a point's 128 × 10112 tile, from the point's four blocks: the squared distance of row r of the x block to
    column c of the centres block — the row's sum of squares plus the centres' precomputed sum of squares at c minus twice
    the inner product — kept where the row's label is c and 0 elsewhere, clamped, and then 0 in the columns from 10000 on. -/
def cell (x0 : Vec Ideal S128x512 .f32) (x5 : Vec Ideal S512x10112 .bf16) (x7 : Vec Ideal S1x10112 .f32) (x9 : Vec Ideal S128x1 .i32)
    (r : Fin 128) (c : Fin 10112) : EReal :=
  Scalar.select (IntOp.cmpi .slt (BitVec.ofNat 32 c.val) 10000#32)
    (min upper (max lower (Scalar.select (IntOp.cmpi .eq (x9 (ix2 r (0 : Fin 1))) (BitVec.ofNat 32 c.val))
      (((∑ k : Fin 512, x0 (ix2 r k) * x0 (ix2 r k)) + x7 (ix2 (0 : Fin 1) c)) - two * ∑ k : Fin 512, x0 (ix2 r k) * x5 (ix2 k c))
      (Ideal.ofBits .f32 0x00000000#32))))
    (Ideal.ofBits .f32 0x00000000#32)

/-- The tile as the body's operations build it. -/
def tile (x0 : Vec Ideal S128x512 .f32) (x5 : Vec Ideal S512x10112 .bf16) (x7 : Vec Ideal S1x10112 .f32) (x9 : Vec Ideal S128x1 .i32) :
    FVec Ideal S128x10112 .f32 :=
  select (cmpi .slt (iota .tc S128x10112 32 [1] iota_S128x10112_d1_w32) (broadcast S128x10112 10000#32))
    (minimumf (broadcast S128x10112 (Scalar.ofBits .f32 0x5368D4A5#32))
      (maximumf (broadcast S128x10112 (Scalar.ofBits .f32 0x2B8CBCCC#32))
        (select (cmpi .eq (broadcastTo S128x10112 (shapeCast S128x1 x9 shapeCasts_S128x1_S128x1 : IVec S128x1 32) broadcasts_S128x1_S128x10112) (iota .tc S128x10112 32 [1] iota_S128x10112_d1_w32))
          (subf (addf (broadcastTo S128x10112 (shapeCast S128x1 (multiReduction .add [1] S128 (mulf x0 x0 : FVec Ideal S128x512 .f32) 0x00000000#32 reduces_S128x512_S128 (.inl rfl) rfl) shapeCasts_S128_S128x1 : FVec Ideal S128x1 .f32) broadcasts_S128x1_S128x10112) (broadcastTo S128x10112 (shapeCast S1x10112 x7 shapeCasts_S1x10112_S1x10112 : FVec Ideal S1x10112 .f32) broadcasts_S1x10112_S128x10112))
            (mulf (broadcast S128x10112 (Scalar.ofBits .f32 0x40000000#32)) (matmul dot_S128x512_S512x10112_S128x10112_1_0_0_1_n_n none (truncf .bf16 x0 bitsLt_bf16_f32 : FVec Ideal S128x512 .bf16) (shapeCast S512x10112 x5 shapeCasts_S512x10112_S512x10112 : FVec Ideal S512x10112 .bf16) (constant S128x10112 .f32 0x00000000#32))))
          (broadcast S128x10112 (Scalar.ofBits .f32 0x00000000#32)))))
    (broadcast S128x10112 (Scalar.ofBits .f32 0x00000000#32))

/-- The body's stored value is the tile summed along its rows, then down the column of row sums, recast as a 1 × 1 × 1 block. -/
theorem pay_eq (x0 : Vec Ideal S128x512 .f32) (x5 : Vec Ideal S512x10112 .bf16) (x7 : Vec Ideal S1x10112 .f32) (x9 : Vec Ideal S128x1 .i32) :
    k0_pay1 (F := Ideal) x0 x5 x7 x9
      = shapeCast S1x1x1 (shapeCast S1x1 (multiReduction .add [0] S1
          (shapeCast S128x1 (multiReduction .add [1] S128 (tile x0 x5 x7 x9) 0x00000000#32 reduces_S128x10112_S128 (.inl rfl) rfl) shapeCasts_S128_S128x1 : FVec Ideal S128x1 .f32)
          0x00000000#32 reduces_S128x1_S1 (.inl rfl) rfl) shapeCasts_S1_S1x1 : FVec Ideal S1x1 .f32) shapeCasts_S1x1_S1x1x1 := rfl

/-- The tile's entry (r, c). -/
theorem tile_apply (x0 : Vec Ideal S128x512 .f32) (x5 : Vec Ideal S512x10112 .bf16) (x7 : Vec Ideal S1x10112 .f32) (x9 : Vec Ideal S128x1 .i32)
    (r : Fin 128) (c : Fin 10112) : tile x0 x5 x7 x9 (ix2 r c) = cell x0 x5 x7 x9 r c := by
  have hi : (iota .tc S128x10112 32 [1] iota_S128x10112_d1_w32) (ix2 r c) = BitVec.ofNat 32 c.val :=
    iota_single_apply .tc S128x10112 32 (1 : Fin 2) iota_S128x10112_d1_w32 (ix2 r c)
  have hl : (broadcastTo S128x10112 (shapeCast S128x1 x9 shapeCasts_S128x1_S128x1 : IVec S128x1 32) broadcasts_S128x1_S128x10112) (ix2 r c) = x9 (ix2 r (0 : Fin 1)) := by
    rw [shapeCast_self]; exact broadcastCol_apply x9 broadcasts_S128x1_S128x10112 r c
  have hx : (broadcastTo S128x10112 (shapeCast S128x1 (multiReduction .add [1] S128 (mulf x0 x0 : FVec Ideal S128x512 .f32) 0x00000000#32 reduces_S128x512_S128 (.inl rfl) rfl) shapeCasts_S128_S128x1 : FVec Ideal S128x1 .f32) broadcasts_S128x1_S128x10112) (ix2 r c) = ∑ k : Fin 512, x0 (ix2 r k) * x0 (ix2 r k) := by
    rw [broadcastCol_apply _ broadcasts_S128x1_S128x10112 r c, shapeCast_col_apply _ shapeCasts_S128_S128x1 r 0,
      rowSum_apply (mulf x0 x0 : FVec Ideal S128x512 .f32) reduces_S128x512_S128 (.inl rfl) rfl r]
    rfl
  have hc : (broadcastTo S128x10112 (shapeCast S1x10112 x7 shapeCasts_S1x10112_S1x10112 : FVec Ideal S1x10112 .f32) broadcasts_S1x10112_S128x10112) (ix2 r c) = x7 (ix2 (0 : Fin 1) c) := by
    rw [shapeCast_self]; exact broadcastTo_1b_ab_apply x7 broadcasts_S1x10112_S128x10112 r c
  have hd : (matmul dot_S128x512_S512x10112_S128x10112_1_0_0_1_n_n none (truncf .bf16 x0 bitsLt_bf16_f32 : FVec Ideal S128x512 .bf16) (shapeCast S512x10112 x5 shapeCasts_S512x10112_S512x10112 : FVec Ideal S512x10112 .bf16) (constant S128x10112 .f32 0x00000000#32)) (ix2 r c) = ∑ k : Fin 512, x0 (ix2 r k) * x5 (ix2 k c) := by
    rw [shapeCast_self]
    exact TileOps.matmul_zero_apply dot_S128x512_S512x10112_S128x10112_1_0_0_1_n_n_wf none (truncf .bf16 x0 bitsLt_bf16_f32 : FVec Ideal S128x512 .bf16) x5 r c
  unfold tile cell
  show Scalar.select (IntOp.cmpi .slt ((iota .tc S128x10112 32 [1] iota_S128x10112_d1_w32) (ix2 r c)) 10000#32)
    (min upper (max lower (Scalar.select (IntOp.cmpi .eq ((broadcastTo S128x10112 (shapeCast S128x1 x9 shapeCasts_S128x1_S128x1 : IVec S128x1 32) broadcasts_S128x1_S128x10112) (ix2 r c)) ((iota .tc S128x10112 32 [1] iota_S128x10112_d1_w32) (ix2 r c)))
      (((broadcastTo S128x10112 (shapeCast S128x1 (multiReduction .add [1] S128 (mulf x0 x0 : FVec Ideal S128x512 .f32) 0x00000000#32 reduces_S128x512_S128 (.inl rfl) rfl) shapeCasts_S128_S128x1 : FVec Ideal S128x1 .f32) broadcasts_S128x1_S128x10112) (ix2 r c) + (broadcastTo S128x10112 (shapeCast S1x10112 x7 shapeCasts_S1x10112_S1x10112 : FVec Ideal S1x10112 .f32) broadcasts_S1x10112_S128x10112) (ix2 r c)) - two * (matmul dot_S128x512_S512x10112_S128x10112_1_0_0_1_n_n none (truncf .bf16 x0 bitsLt_bf16_f32 : FVec Ideal S128x512 .bf16) (shapeCast S512x10112 x5 shapeCasts_S512x10112_S512x10112 : FVec Ideal S512x10112 .bf16) (constant S128x10112 .f32 0x00000000#32)) (ix2 r c))
      (Ideal.ofBits .f32 0x00000000#32)))) (Ideal.ofBits .f32 0x00000000#32) = _
  rw [hi, hl, hx, hc, hd]

/-- The body's stored value at its one index: the tile's entries added over the rows and the columns. -/
theorem pay_apply (x0 : Vec Ideal S128x512 .f32) (x5 : Vec Ideal S512x10112 .bf16) (x7 : Vec Ideal S1x10112 .f32) (x9 : Vec Ideal S128x1 .i32) :
    k0_pay1 (F := Ideal) x0 x5 x7 x9 (ix3 (0 : Fin 1) (0 : Fin 1) (0 : Fin 1)) = ∑ r : Fin 128, ∑ c : Fin 10112, cell x0 x5 x7 x9 r c := by
  rw [pay_eq]
  refine (shapeCast_apply _ shapeCasts_S1x1_S1x1x1 (ix3 (0 : Fin 1) (0 : Fin 1) (0 : Fin 1)) (ix2 (0 : Fin 1) (0 : Fin 1)) ?_).trans ?_
  · rw [Shape.rowMajor_val_two, Shape.rowMajor_val_three]; rfl
  refine (shapeCast_apply _ shapeCasts_S1_S1x1 (ix2 (0 : Fin 1) (0 : Fin 1)) (ix1 (0 : Fin 1)) ?_).trans ?_
  · rw [Shape.rowMajor_val_one, Shape.rowMajor_val_two]; rfl
  rw [colSum_apply _ reduces_S128x1_S1 (.inl rfl) rfl 0]
  refine Finset.sum_congr rfl fun r _ => ?_
  rw [shapeCast_col_apply _ shapeCasts_S128_S128x1 r 0, rowSum_apply _ reduces_S128x10112_S128 (.inl rfl) rfl r]
  exact Finset.sum_congr rfl fun c _ => tile_apply x0 x5 x7 x9 r c

/-! ## A point's entry against the specification's -/

/-- Column numbers are compared with 10000 as signed words; below 10112 that is the comparison of the numbers. -/
theorem slt_cols (j : Nat) (hj : j < 10112) :
    IntOp.cmpi .slt (BitVec.ofNat 32 j) 10000#32 = if j < 10000 then 1#1 else 0#1 := by
  have h1 : (BitVec.ofNat 32 j).toInt = (j : Int) := by
    have hm : j % 2 ^ 32 = j := Nat.mod_eq_of_lt (by omega)
    rw [BitVec.toInt, BitVec.toNat_ofNat, hm, if_pos (by omega)]
  have h2 : (10000#32 : BitVec 32).toInt = 10000 := by decide
  show BitVec.ofBool ((BitVec.ofNat 32 j).slt 10000#32) = _
  rw [BitVec.slt, h1, h2]
  by_cases h : j < 10000
  · rw [if_pos h]; have : ((j : Int) < 10000) := by omega
    simp [this]
  · rw [if_neg h]; have : ¬ ((j : Int) < 10000) := by omega
    simp [this]

/-- When a point's blocks are: rows of x (row r of the block is row b of x), the transposed centres padded with zero
    columns, the centres' sums of squares padded with zeros, and the labels column (row r of the block is label b) — then
    the point's entry (r, c) is the specification's entry (b, c) in the first 10000 columns and 0 in the padding. -/
theorem cell_eq (x0 : Vec Ideal S128x512 .f32) (x5 : Vec Ideal S512x10112 .bf16) (x7 : Vec Ideal S1x10112 .f32) (x9 : Vec Ideal S128x1 .i32)
    (X : FVec Ideal ⟨2, ![4096, 512]⟩ .f32) (lab : IVec ⟨1, ![4096]⟩ 32) (Y : FVec Ideal ⟨2, ![10000, 512]⟩ .f32)
    (b : Fin 4096) (r : Fin 128) (c : Fin 10112)
    (hx : ∀ k : Fin 512, x0 (ix2 r k) = X (ix2 b k))
    (h5 : ∀ k : Fin 512, x5 (ix2 k c) = if h : c.val < 10000 then Y (ix2 (⟨c.val, h⟩ : Fin 10000) k) else 0)
    (h7 : x7 (ix2 (0 : Fin 1) c) = if h : c.val < 10000 then rowSq Y (⟨c.val, h⟩ : Fin 10000) else 0)
    (h9 : x9 (ix2 r (0 : Fin 1)) = lab (ix1 b)) :
    cell x0 x5 x7 x9 r c = if h : c.val < 10000 then entry X lab Y b (⟨c.val, h⟩ : Fin 10000) else 0 := by
  unfold cell
  rw [slt_cols c.val c.isLt]
  by_cases h : c.val < 10000
  · rw [if_pos h, dif_pos h, select_one]
    simp only [hx, h5, h7, h9, dif_pos h]
    show min upper (max lower (Scalar.select (BitVec.ofBool (lab (ix1 b) == BitVec.ofNat 32 c.val)) _ _)) = _
    rw [select_mask, Ideal.ofBits_zero_f32]
    rfl
  · rw [if_neg h, dif_neg h, select_zero, Ideal.ofBits_zero_f32]

end Cert.KernelIdeal.Tile

end
-- ==== Proof.Blocks.lean ====
/-
  From the kernel's blocks to the array of its 32 stored numbers.

  The grid has 32 points. Point t's x block is rows 128·t … 128·t + 127 of x and its labels block the same rows of the
  labels column; its centres block and its sums-of-squares block are the whole padded arrays, at every point. With the
  host's preparation read entry by entry, point t therefore stores the specification's entries added over tile t's 128
  rows and the 10000 real columns. Each point writes its number to its own slot of the 32 × 1 × 1 output, and the 32
  slots are the whole array.
-/
import proofs.«110643_j1726576857091_2_alg».proof.Proof.Gen.KernelIdeal.Frame
import proofs.«110643_j1726576857091_2_alg».proof.Proof.Entry
import proofs.«110643_j1726576857091_2_alg».proof.Proof.Tile
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Cert.CenterLoss Cert.KernelIdeal.Entry
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 32 points. -/
theorem tlt (t : Fin cfg0.N) : t.val < 32 := Nat.lt_of_lt_of_eq t.isLt (N_0 : cfg0.N = 32)

/-- Row r of tile t of the 4096 rows. -/
def rowOf (t : Fin 32) (r : Fin 128) : Fin 4096 := ⟨r.val + 128 * t.val, by have := t.isLt; have := r.isLt; omega⟩

/-- The printed index maps, decided over the grid: the x, labels and output blocks move with the point along their first
    axis; the centres and their sums of squares stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row r of point t's x block is row r of tile t of x. -/
theorem xblk_apply (c : Dev nD) (t : Fin cfg0.N) (r : Fin 128) (k : Fin 512) :
    (iblk m c 0 t : Vec Ideal S128x512 .f32) (ix2 r k) = argX m c (ix2 (rowOf ⟨t.val, tlt t⟩ r) k) := by
  obtain ⟨e0, e1, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 2) * 128 + 1 * r.val = r.val + 128 * t.val; rw [e0]; omega
  | ⟨1, _⟩ => show win0_0.index t (1 : Fin 2) * 512 + 1 * k.val = k.val; rw [e1]; omega

/-- Every point's centres block is the whole padded transposed array. -/
theorem ctblk_apply (c : Dev nD) (t : Fin cfg0.N) (k : Fin 512) (j : Fin 10112) :
    (iblk m c 1 t : Vec Ideal S512x10112 .bf16) (ix2 k j) = (V m c main_v3 : S512x10112.Idx → EReal) (ix2 k j) := by
  obtain ⟨-, -, e2, e3, -⟩ := idx_facts t
  unfold iblk
  rw [View.read_apply]
  show V m c main_v3 _ = _
  refine congrArg (V m c main_v3) (funext fun a => Fin.ext ?_)
  match a with
  | ⟨0, _⟩ => show win0_1.index t (0 : Fin 2) * 512 + 1 * k.val = k.val; rw [e2]; omega
  | ⟨1, _⟩ => show win0_1.index t (1 : Fin 2) * 10112 + 1 * j.val = j.val; rw [e3]; omega

/-- Every point's sums-of-squares block is the whole padded row. -/
theorem csqblk_apply (c : Dev nD) (t : Fin cfg0.N) (z : Fin 1) (j : Fin 10112) :
    (iblk m c 2 t : Vec Ideal S1x10112 .f32) (ix2 z j) = (V m c main_v8 : S1x10112.Idx → EReal) (ix2 z j) := by
  obtain ⟨-, -, -, -, e4, e5, -⟩ := idx_facts t
  unfold iblk
  rw [View.read_apply]
  show V m c main_v8 _ = _
  refine congrArg (V m c main_v8) (funext fun a => Fin.ext ?_)
  match a with
  | ⟨0, _⟩ => show win0_2.index t (0 : Fin 2) * 1 + 1 * z.val = z.val; rw [e4]; omega
  | ⟨1, _⟩ => show win0_2.index t (1 : Fin 2) * 10112 + 1 * j.val = j.val; rw [e5]; omega

/-- Row r of point t's labels block is row r of tile t of the labels column. -/
theorem labblk_apply (c : Dev nD) (t : Fin cfg0.N) (r : Fin 128) (z : Fin 1) :
    (iblk m c 3 t : Vec Ideal S128x1 .i32) (ix2 r z) = (V m c main_v0 : S4096x1.Idx → BitVec 32) (ix2 (rowOf ⟨t.val, tlt t⟩ r) z) := by
  obtain ⟨-, -, -, -, -, -, e6, e7, -⟩ := idx_facts t
  unfold iblk
  rw [View.read_apply]
  show V m c main_v0 _ = _
  refine congrArg (V m c main_v0) (funext fun a => Fin.ext ?_)
  match a with
  | ⟨0, _⟩ => show win0_3.index t (0 : Fin 2) * 128 + 1 * r.val = r.val + 128 * t.val; rw [e6]; omega
  | ⟨1, _⟩ => show win0_3.index t (1 : Fin 2) * 1 + 1 * z.val = z.val; rw [e7]; omega

/-! ## What each point stores, and the array of the 32 stored numbers -/

/-- The specification's entries added over the 128 rows of tile t and the 10000 columns. -/
def tileSum (X : FVec Ideal ⟨2, ![4096, 512]⟩ .f32) (lab : IVec ⟨1, ![4096]⟩ 32) (Y : FVec Ideal ⟨2, ![10000, 512]⟩ .f32) (t : Fin 32) : EReal :=
  ∑ r : Fin 128, ∑ j : Fin 10000, entry X lab Y (rowOf t r) j

/-- Point t stores tile t's sum: its tile's padding columns add 0, the others are the specification's entries. -/
theorem point_sum (c : Dev nD) (t : Fin cfg0.N) :
    k0_pay1 (F := Ideal) (iblk m c 0 t) (iblk m c 1 t) (iblk m c 2 t) (iblk m c 3 t) (ix3 (0 : Fin 1) (0 : Fin 1) (0 : Fin 1))
      = tileSum (argX m c) (argLab m c) (argCtr m c) ⟨t.val, tlt t⟩ := by
  refine (Tile.pay_apply (iblk m c 0 t) (iblk m c 1 t) (iblk m c 2 t) (iblk m c 3 t)).trans ?_
  unfold tileSum
  refine Finset.sum_congr rfl fun r _ => ?_
  have hcell : ∀ j : Fin 10112, Tile.cell (iblk m c 0 t) (iblk m c 1 t) (iblk m c 2 t) (iblk m c 3 t) r j
      = if h : j.val < 10000 then entry (argX m c) (argLab m c) (argCtr m c) (rowOf ⟨t.val, tlt t⟩ r) (⟨j.val, h⟩ : Fin 10000) else 0 := fun j =>
    Tile.cell_eq (iblk m c 0 t) (iblk m c 1 t) (iblk m c 2 t) (iblk m c 3 t) (argX m c) (argLab m c) (argCtr m c)
      (rowOf ⟨t.val, tlt t⟩ r) r j
      (fun k => xblk_apply m c t r k)
      (fun k => (ctblk_apply m c t k j).trans (ctrT_entry m c k j))
      ((csqblk_apply m c t 0 j).trans (csq_entry m c 0 j))
      ((labblk_apply m c t r 0).trans (labels_entry m c (rowOf ⟨t.val, tlt t⟩ r) 0))
  refine (sum_first 10000 112 (fun j => Tile.cell (iblk m c 0 t) (iblk m c 1 t) (iblk m c 2 t) (iblk m c 3 t) r j)
    (fun i hi => (hcell i).trans (dif_neg (by omega)))).trans ?_
  refine Finset.sum_congr rfl fun j _ => ?_
  exact (hcell (Fin.castAdd 112 j)).trans (dif_pos j.isLt)

/-- The 32 × 1 × 1 array of the tiles' sums. -/
def partials (c : Dev nD) : S32x1x1.Idx → EReal := fun i =>
  tileSum (argX m c) (argLab m c) (argCtr m c) ⟨(i 0).val, (i 0).isLt⟩

/-- What point t writes back is block t of that array. -/
theorem flushed_eq (c : Dev nD) (t : Fin cfg0.N) :
    (dats m 0 c).flushed 4 t = ((cfg0.win 4).blk t).view.read (Elt Ideal) (partials m c) := by
  obtain ⟨-, -, -, -, -, -, -, -, e8, -⟩ := idx_facts t
  show (cfg0.win 4).cut (grid0.coords t) ((dats m 0 c).after 4 t) = _
  rw [after0_4]
  unfold out0_4
  rw [View.canon_unit_zero hz3]
  simp only [View.ld_unit_zero (S := S128x512) hz2, View.ld_unit_zero (S := S512x10112) hz2, View.ld_unit_zero (S := S1x10112) hz2,
    View.ld_unit_zero (S := S128x1) hz2]
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  rw [hy, View.read_apply]
  refine (point_sum m c t).trans ?_
  unfold partials
  refine congrArg (tileSum (argX m c) (argLab m c) (argCtr m c)) (Fin.ext ?_)
  show t.val = win0_4.index t (0 : Fin 3) * 1 + 1 * 0
  rw [e8]; omega

/-- Every index of the array is in some point's block. -/
theorem covered (c : Dev nD) (i : S32x1x1.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 1 := (i 2).isLt
  have hN : (i 0).val < cfg0.N := Nat.lt_of_lt_of_eq hi0 (N_0 : cfg0.N = 32).symm
  obtain ⟨-, -, -, -, -, -, -, -, e8', e9, e10⟩ := idx_facts ⟨(i 0).val, hN⟩
  have e8 : win0_4.index ⟨(i 0).val, hN⟩ (0 : Fin 3) = (i 0).val := e8'
  refine ⟨⟨(i 0).val, hN⟩, flush0_4 _, ?_⟩
  show i ∈ ((View.whole main_v9).slice (win0_4.rect ⟨(i 0).val, hN⟩)).set
  rw [View.set_slice_whole, Rect.mem_set_unit]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [e8]; omega
  | ⟨1, _⟩ =>
    show win0_4.index ⟨(i 0).val, hN⟩ (1 : Fin 3) * 1 ≤ (i 1).val ∧ (i 1).val < win0_4.index ⟨(i 0).val, hN⟩ (1 : Fin 3) * 1 + 1
    rw [e9]; omega
  | ⟨2, _⟩ =>
    show win0_4.index ⟨(i 0).val, hN⟩ (2 : Fin 3) * 1 ≤ (i 2).val ∧ (i 2).val < win0_4.index ⟨(i 0).val, hN⟩ (2 : Fin 3) * 1 + 1
    rw [e10]; omega

/-- So after the region the output array holds the tiles' sums. -/
theorem final (c : Dev nD) : (dats m 0 c).arrAt 4 cfg0.N = partials m c :=
  (dats m 0 c).arrAt_eq_of_cover 4 (partials m c) (fun t _ => flushed_eq m c t) (covered c)

end Cert.KernelIdeal.Blocks

end
-- ==== Proof.Result.lean ====
/-
  The kernel's result is the loss of Spec.lean.

  After the region the host adds the 32 numbers the points stored and divides by 4096. Point t stored the specification's
  entries added over the 128 rows of tile t and the 10000 columns, so the 32 numbers add up to the sum over all 4096 rows:
  row r of tile t is row r + 128·t.
-/
import proofs.«110643_j1726576857091_2_alg».proof.Proof.Gen.KernelIdeal.Frame
import proofs.«110643_j1726576857091_2_alg».proof.Proof.Blocks
import Idealize.ShloMosaic.Lib.StableHlo.Run
import Idealize.ShloMosaic.Lib.Pipeline.Value

noncomputable section

open scoped BigOperators

namespace Cert.KernelIdeal.Result

open Cert.KernelIdeal Cert.KernelIdeal.Gen Idealize.ShloMosaic Idealize.ShloMosaic.TcCoe Idealize.SL.Sem Idealize.ShloMosaic.StableHlo Idealize.ShloMosaic.ValueIdx
open Cert.CenterLoss Cert.KernelIdeal.Entry Cert.KernelIdeal.Blocks
open Idealize.ShloMosaic.Pipeline (Dat)

/-- An n × 1 × 1 index is its first coordinate. -/
def idx3Equiv {n : Nat} : (⟨3, ![n, 1, 1]⟩ : Shape).Idx ≃ Fin n where
  toFun i := ⟨(i 0).val, (i 0).isLt⟩
  invFun t := ix3 t (0 : Fin 1) (0 : Fin 1)
  left_inv i := funext fun a => Fin.ext (by
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega)
  right_inv _ := rfl

/-- So a sum over such indices is the sum over the first coordinate. -/
theorem sum_idx3 {M : Type*} [AddCommMonoid M] {n : Nat} (f : (⟨3, ![n, 1, 1]⟩ : Shape).Idx → M) :
    ∑ i, f i = ∑ t : Fin n, f (ix3 t (0 : Fin 1) (0 : Fin 1)) :=
  (Equiv.sum_comp (idx3Equiv (n := n)).symm f).symm

variable (m : (ℓ : Loc nD τ sig) → Buf (Elt Ideal) ℓ) (ρ : Dev nD → PrngReg)

/-- The tiles' sums add up to the sum over all rows. -/
theorem sum_partials (c : Dev nD) :
    ∑ i : S32x1x1.Idx, partials m c i = ∑ b : Fin 4096, ∑ j : Fin 10000, entry (argX m c) (argLab m c) (argCtr m c) b j := by
  rw [sum_idx3]
  exact sum_tiles 32 128 (fun b : Fin 4096 => ∑ j : Fin 10000, entry (argX m c) (argLab m c) (argCtr m c) b j)

/-- What the host's operations after the region leave in the result buffer. -/
theorem tail_value (c : Dev nD) :
    Pipeline.afterTail₀ cfgs (dats m) 0 (V0 m) [hostOps1] c main_v11 = fun _ => loss (argX m c) (argLab m c) (argCtr m c) := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v9) = partials m c :=
    (Pipeline.withArrays_arr spec0 launch0.win.arr_inj c _ _ 4).trans (final m c)
  rw [e]
  funext i
  show Ideal.div (Host.reduceAdd (partials m c) (constant (F := Ideal) S_ .f32 0x00000000#32) reducesTo_S32x1x1_S_d0_1_2 h_S_ i) count = _
  have hs : Host.reduceAdd (partials m c) (constant (F := Ideal) S_ .f32 0x00000000#32) reducesTo_S32x1x1_S_d0_1_2 h_S_ i
      = ∑ b : Fin 4096, ∑ j : Fin 10000, entry (argX m c) (argLab m c) (argCtr m c) b j := by
    simp only [Host.reduceAdd, Ideal.hostReduceAdd_def]
    rw [Ideal.hostReduceAdd_total reducesTo_S32x1x1_S_d0_1_2 (fun b => b.elim0) (partials m c) _ i]
    show Ideal.ofBits .f32 0x00000000#32 + _ = _
    rw [Ideal.ofBits_zero_f32, zero_add]
    exact sum_partials m c
  rw [hs]
  rfl

/-- The kernel's run, read: every weakly fair execution terminates with the result buffer at the loss of the argument
    arrays, and the argument arrays unchanged. -/
theorem run : θ_run defs (onTc (τ := τ) (main (F := Ideal))) ⟨m, fun _ => 0, ρ⟩ fun r => ∀ c : Dev nD,
      r.2.mem ((c.tc : Thread nD τ).loc main_v11) = (fun _ => loss (argX m c) (argLab m c) (argCtr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  The kernel computes the centre loss its reference computes.

  Both programs take features x (4096 × 512), one label per row, and centres (10000 × 512), and return one number: the
  4096 × 10000 matrix of squared distances |x_b|² + |centre_c|² − 2·⟨x_b, centre_c⟩, masked to the entries whose column
  is the row's label, clamped entry by entry between two positive constants, added up and divided by 4096
  (Proof/Spec.lean states it once).

  The reference does exactly this on whole arrays, masking by a product with a 0/1 matrix (Proof/RefLoss.lean). The
  kernel pads the centres to 10112 columns, cuts the rows into 32 tiles of 128, masks by a choice instead of a product,
  zeroes the padding columns after the clamp, adds each tile up in a grid point of its own, and lets the host add the 32
  numbers and divide (Proof/Entry.lean, Proof/Tile.lean, Proof/Blocks.lean, Proof/Result.lean). On the extended reals a
  product with 0 is 0 and finite sums may be regrouped freely, so the two are one function of the arguments with no
  condition on them: the precondition is not used by the value claim.

  The three frames are the generated ones; nothing was rewritten by the idealization, so there is nothing to preserve.
-/
import proofs.«110643_j1726576857091_2_alg».proof.Defs
import proofs.«110643_j1726576857091_2_alg».proof.Proof.Gen.Kernel
import proofs.«110643_j1726576857091_2_alg».proof.Proof.Gen.Kernel.Skeleton
import proofs.«110643_j1726576857091_2_alg».proof.Proof.Gen.Kernel.Launch
import proofs.«110643_j1726576857091_2_alg».proof.Proof.Gen.Kernel.Points
import proofs.«110643_j1726576857091_2_alg».proof.Proof.Gen.Kernel.Frame
import proofs.«110643_j1726576857091_2_alg».proof.Proof.Gen.KernelIdeal
import proofs.«110643_j1726576857091_2_alg».proof.Proof.Gen.KernelIdeal.Skeleton
import proofs.«110643_j1726576857091_2_alg».proof.Proof.Gen.KernelIdeal.Launch
import proofs.«110643_j1726576857091_2_alg».proof.Proof.Gen.KernelIdeal.Points
import proofs.«110643_j1726576857091_2_alg».proof.Proof.Gen.KernelIdeal.Frame
import proofs.«110643_j1726576857091_2_alg».proof.Proof.Gen.ReferenceIdeal
import proofs.«110643_j1726576857091_2_alg».proof.Proof.Gen.Pre_finite_inputs
import proofs.«110643_j1726576857091_2_alg».proof.Proof.Gen.ReferenceIdeal.Run
import proofs.«110643_j1726576857091_2_alg».proof.Proof.Gen.ReferenceIdeal.Read
import proofs.«110643_j1726576857091_2_alg».proof.Proof.RefLoss
import proofs.«110643_j1726576857091_2_alg».proof.Proof.Result
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree both programs end with the loss of those arguments in their result buffers. -/
theorem algebraic : Cert.algebraic_KernelIdeal_ReferenceIdeal := by
  intro m ρ m' ρ' _ hagree
  refine ⟨fun c => fun _ => Cert.CenterLoss.loss (Cert.KernelIdeal.Entry.argX m c) (Cert.KernelIdeal.Entry.argLab m c)
    (Cert.KernelIdeal.Entry.argCtr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefLoss.loss_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
